-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 43
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x1, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x1, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Whole.lean ====
/-
  The whole program's run, with the result named.

  The program is three stretches in a row: the first region (the two linear layers), a line of host operations
  (the two sparse products), the second region (the sum). Each stretch starts from the buffer contents the one
  before it left. Every weakly fair execution of the three in a row terminates without a fault, and at the end
  each buffer that is not a kernel's private staging buffer holds what the last stretch left in it: the result
  buffer what the second region wrote back, each argument what it held at launch (no stretch writes one).
-/
import proofs.«180217_j65910568124539_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents
    the last stretch leaves in it, and the arguments end as launched. -/
theorem run : θ_run defs (onTc (τ := τ) (main (F := F))) ⟨m, fun _ => 0, ρ⟩ (fun r => ∀ c : Dev nD,
      r.2.mem ((c.tc : Thread nD τ).loc main_v27) = W3 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v27 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Whole

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.Payload.lean ====
/-
  What the two kernel bodies store, read at one entry of a block.

  The first body takes a block of 5000 feature rows, the two weight matrices and the two biases. Its first
  store is the block's rows against the first weights on the matrix unit (into a zero accumulator), plus the
  first bias laid out as one row and repeated down the block; the narrowing of the operands to a shorter float
  format before the product changes nothing at the exact instance. So at (p, c) it is the sum over k of
  block[p, k] * w1[k, c], plus b1[c]. Its second store is the same with each block entry squared first, against
  the second weights and bias. The second body adds three blocks entry by entry, the first two first.
-/
import proofs.«180217_j65910568124539_1_alg».proof.Proof.Gen.KernelIdeal.Skeleton
import proofs.«180217_j65910568124539_1_alg».proof.Proof.LibDense
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.ValueIdx Cert.LibDense

/-! ## The matrix unit's dimension record: which operand positions an output position reads -/

abbrev dd := dot_S5000x128_S128x128_S5000x128_1_0_0_1_n_n

theorem lhs0 (j : S5000x128.Idx) (q : dd.contr.Idx) : (dd.lhsIdx j q 0).val = (j 0).val := by
  unfold DotDims.lhsIdx
  rw [dif_neg (show ¬(0 : Fin S5000x128.rank) ∈ dd.lhsBatch by decide), dif_pos (show (0 : Fin S5000x128.rank) ∈ dd.lhsNonContracting by decide)]
  rfl
theorem lhs1 (j : S5000x128.Idx) (q : dd.contr.Idx) : (dd.lhsIdx j q 1).val = (q ⟨0, by decide⟩).val :=
  dd.lhsIdx_val_of_single rfl j q
theorem rhs0 (j : S5000x128.Idx) (q : dd.contr.Idx) : (dd.rhsIdx j q 0).val = (q ⟨0, by decide⟩).val :=
  dd.rhsIdx_val_of_single rfl j q
theorem rhs1 (j : S5000x128.Idx) (q : dd.contr.Idx) : (dd.rhsIdx j q 1).val = (j 1).val := by
  unfold DotDims.rhsIdx
  rw [dif_neg (show ¬(1 : Fin S128x128.rank) ∈ dd.rhsBatch by decide), dif_pos (show (1 : Fin S128x128.rank) ∈ dd.rhsNonContracting by decide)]
  rfl

/-- The matrix unit's product of a block by a weight matrix into zero, at (p, c): the block's row p against the
    matrix's column c. -/
theorem product_apply {φ₁ φ₂ : FTy} (l : FVec Ideal S5000x128 φ₁) (r : FVec Ideal S128x128 φ₂) (p : Fin 5000) (c : Fin 128) :
    FloatOps.matmul dd none l r (constant S5000x128 .f32 0x00000000#32) (ix2 p c) = dense (fun k => l (ix2 p k)) r c :=
  matmul_zero_plain dd none rfl rfl lhs0 lhs1 rhs0 rhs1 l r p c

/-- A bias laid out as one row and repeated down the block, at (p, c): the bias at c. -/
theorem bias_apply (b : Vec Ideal S128 .f32) (p : Fin 5000) (c : Fin 128) :
    broadcastTo S5000x128 (shapeCast S1x128 b shapeCasts_S128_S1x128) broadcasts_S1x128_S5000x128 (ix2 p c) = b (ix1 c) :=
  (broadcastTo_1b_ab_apply _ broadcasts_S1x128_S5000x128 p c).trans (shapeCast_a_1a_apply b shapeCasts_S128_S1x128 0 c)

/-! ## The stores -/

/-- The first store at (p, c). -/
theorem pay1_apply (x0 : Vec Ideal S5000x128 .f32) (w : Vec Ideal S128x128 .f32) (b : Vec Ideal S128 .f32) (p : Fin 5000) (c : Fin 128) :
    k0_pay1 (F := Ideal) x0 w b (ix2 p c) = dense (fun k => x0 (ix2 p k)) w c + b (ix1 c) := by
  unfold k0_pay1
  exact congrArg₂ (fun a b : EReal => a + b) (product_apply _ _ p c) (bias_apply b p c)

/-- The second store at (p, c): the block's entries squared first. -/
theorem pay2_apply (x0 : Vec Ideal S5000x128 .f32) (w : Vec Ideal S128x128 .f32) (b : Vec Ideal S128 .f32) (p : Fin 5000) (c : Fin 128) :
    k0_pay2 (F := Ideal) x0 w b (ix2 p c) = dense (fun k => x0 (ix2 p k) * x0 (ix2 p k)) w c + b (ix1 c) := by
  unfold k0_pay2
  exact congrArg₂ (fun a b : EReal => a + b) (product_apply _ _ p c) (bias_apply b p c)

/-- The second body's store: the three blocks added entry by entry, the first two first. -/
theorem pay_sum (x0 x1 x2 : Vec Ideal S5000x128 .f32) : k1_pay1 (F := Ideal) x0 x1 x2 = addf (addf x0 x1) x2 := by
  unfold k1_pay1
  rw [shapeCast_self, shapeCast_self, shapeCast_self]

end Cert.KernelIdeal.Payload

end
-- ==== Proof.Spec.lean ====
/-
  The one function both programs compute twice: a linear layer of a 100000-row array.

  For a feature array x of shape [100000, 128], a weight matrix w of shape [128, 128] and a bias b of shape
  [128], the layer's entry at (r, c) is  sum over k of x[r, k] * w[k, c], plus b[c]  — a row of x against a column
  of w, then the bias of that column. The kernel computes it 5000 rows at a time on the matrix unit, the reference
  with one whole-array dot product; at the exact instance both are this function, entry by entry.
-/
import proofs.«180217_j65910568124539_1_alg».proof.Proof.LibDense
import Idealize.ShloMosaic.Lib.ValueIdx

noncomputable section

namespace Cert.Layer

open Idealize.ShloMosaic Idealize.ShloMosaic.ValueIdx Cert.LibDense

/-- The linear layer, entry by entry: row `r` of `x` against column `c` of `w`, plus `b` at `c`. -/
def lin (x : (⟨2, ![100000, 128]⟩ : Shape).Idx → EReal) (w : (⟨2, ![128, 128]⟩ : Shape).Idx → EReal)
    (b : (⟨1, ![128]⟩ : Shape).Idx → EReal) : (⟨2, ![100000, 128]⟩ : Shape).Idx → EReal :=
  fun i => dense (fun k => x (ix2 (i 0) k)) w (i 1) + b (ix1 (i 1))

/-- The layer at the entry (r, c). -/
theorem lin_apply (x : (⟨2, ![100000, 128]⟩ : Shape).Idx → EReal) (w : (⟨2, ![128, 128]⟩ : Shape).Idx → EReal)
    (b : (⟨1, ![128]⟩ : Shape).Idx → EReal) (r : Fin 100000) (c : Fin 128) :
    lin x w b (ix2 r c) = dense (fun k => x (ix2 r k)) w c + b (ix1 c) := rfl

end Cert.Layer

end
-- ==== Proof.Linear.lean ====
/-
  The first region: the two linear layers, 5000 rows at a time.

  At grid point t the feature window and the two output windows cover rows 5000·t to 5000·t + 4999 (all 128
  columns); the weight and bias windows are the whole arrays at every point. Entry (p, c) of the block the body
  stores for the first output is the block's row p against column c of the first weights plus the first bias at
  c; row p of the block is row 5000·t + p of the features. So point t writes back block t of the layer `lin` of
  the whole feature array. The second output is the same with the features squared entry by entry. The twenty
  blocks cover all 100000 rows, so each output array ends holding its layer.
-/
import proofs.«180217_j65910568124539_1_alg».proof.Proof.Gen.KernelIdeal.Frame
import proofs.«180217_j65910568124539_1_alg».proof.Proof.Payload
import proofs.«180217_j65910568124539_1_alg».proof.Proof.Spec
import Idealize.ShloMosaic.Lib.Pipeline.Value

set_option maxRecDepth 16384

noncomputable section

namespace Cert.KernelIdeal.Linear

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)
open Cert.LibDense Cert.Layer

/-! ## One entry of a stored block, over plain variables -/

/-- If row p of the block is row r of the array X, the weight block is W and the bias block is B (at the entries
    the product reads), the first store at (p, c) is the layer of X at (r, c). -/
theorem entry1 (X : S100000x128.Idx → EReal) (W : S128x128.Idx → EReal) (B : S128.Idx → EReal)
    (x0 : Vec Ideal S5000x128 .f32) (x1 : Vec Ideal S128x128 .f32) (x2 : Vec Ideal S128 .f32)
    (r : Fin 100000) (p : Fin 5000) (c : Fin 128)
    (h0 : ∀ k : Fin 128, x0 (ix2 p k) = X (ix2 r k)) (h1 : ∀ k : Fin 128, x1 (ix2 k c) = W (ix2 k c)) (h2 : x2 (ix1 c) = B (ix1 c)) :
    k0_pay1 (F := Ideal) x0 x1 x2 (ix2 p c) = lin X W B (ix2 r c) := by
  rw [pay1_apply, lin_apply]
  unfold dense
  rw [h2]
  refine congrArg (fun s : EReal => s + B (ix1 c)) (Finset.sum_congr rfl fun k _ => ?_)
  show x0 (ix2 p k) * x1 (ix2 k c) = X (ix2 r k) * W (ix2 k c)
  rw [h0 k, h1 k]

/-- The same for the second store and the layer of the squared array. -/
theorem entry2 (X : S100000x128.Idx → EReal) (W : S128x128.Idx → EReal) (B : S128.Idx → EReal)
    (x0 : Vec Ideal S5000x128 .f32) (x1 : Vec Ideal S128x128 .f32) (x2 : Vec Ideal S128 .f32)
    (r : Fin 100000) (p : Fin 5000) (c : Fin 128)
    (h0 : ∀ k : Fin 128, x0 (ix2 p k) = X (ix2 r k)) (h1 : ∀ k : Fin 128, x1 (ix2 k c) = W (ix2 k c)) (h2 : x2 (ix1 c) = B (ix1 c)) :
    k0_pay2 (F := Ideal) x0 x1 x2 (ix2 p c) = lin (fun i => X i * X i) W B (ix2 r c) := by
  rw [pay2_apply, lin_apply]
  unfold dense
  rw [h2]
  refine congrArg (fun s : EReal => s + B (ix1 c)) (Finset.sum_congr rfl fun k _ => ?_)
  show x0 (ix2 p k) * x0 (ix2 p k) * x1 (ix2 k c) = X (ix2 r k) * X (ix2 r k) * W (ix2 k c)
  rw [h0 k, h1 k]

/-! ## The blocks -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The feature array as the region finds it. -/
abbrev feat (c : Dev nD) : S100000x128.Idx → EReal := V c main_arg0
/-- The first layer of the arrays the region reads. -/
abbrev layer1 (c : Dev nD) : S100000x128.Idx → EReal := lin (feat V c) (V c main_arg4) (V c main_arg5)
/-- The second layer: the features squared, the second weights and bias. -/
abbrev layer2 (c : Dev nD) : S100000x128.Idx → EReal := lin (fun i => feat V c i * feat V c i) (V c main_arg6) (V c main_arg7)

/-- The block index maps over the grid: the feature window and the two outputs at block row t, the weights and
    biases at block 0. -/
theorem block_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point t writes back to the first output is block t of the first layer. -/
theorem flushed5_eq (c : Dev nD) (t : Fin cfg0.N) :
    (dat0 V c).flushed 5 t = ((cfg0.win 5).blk t).view.read (Elt Ideal) (layer1 V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  obtain ⟨a0, a1, b0, b1, c0, d0, d1, e0, f0, f1, g0, g1⟩ := block_at t
  have hN : grid0.N = 20 := N_0
  have htN : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have he : ((cfg0.win 5).blk t).view.emb (ix2 p q) = ix2 (⟨t.val * 5000 + p.val, hr⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (ix2 p q) = layer1 V c (((cfg0.win 5).blk t).view.emb (ix2 p q))
  rw [he]
  refine entry1 (feat V c) (V c main_arg4) (V c main_arg5) (iblk0 V c 0 t) (iblk0 V c 1 t) (iblk0 V c 2 t) ⟨t.val * 5000 + p.val, hr⟩ p q
    (fun k => ?_) (fun k => ?_) ?_
  · show V c main_arg0 (((cfg0.win 0).blk t).view.emb (ix2 p k)) = V c main_arg0 (ix2 (⟨t.val * 5000 + p.val, hr⟩ : Fin 100000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg4 (((cfg0.win 1).blk t).view.emb (ix2 k q)) = V c main_arg4 (ix2 k q)
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V c main_arg5 (((cfg0.win 2).blk t).view.emb (ix1 q)) = V c main_arg5 (ix1 q)
    refine congrArg (V c main_arg5) (funext fun a => Fin.ext ?_)
    match a with
    | ⟨0, _⟩ => show win0_2.index t (0 : Fin 1) * 128 + 1 * q.val = q.val; omega

/-- What point t writes back to the second output is block t of the second layer. -/
theorem flushed6_eq (c : Dev nD) (t : Fin cfg0.N) :
    (dat0 V c).flushed 6 t = ((cfg0.win 6).blk t).view.read (Elt Ideal) (layer2 V c) := by
  show (cfg0.win 6).cut (grid0.coords t) ((dat0 V c).after 6 t) = _
  rw [after0_6]
  unfold out0_6
  rw [View.canon_unit_zero zero2]
  simp only [View.ld_unit_zero (S := S5000x128) zero2, View.ld_unit_zero (S := S128x128) zero2, View.ld_unit_zero (S := S128) zero1]
  obtain ⟨a0, a1, b0, b1, c0, d0, d1, e0, f0, f1, g0, g1⟩ := block_at t
  have hN : grid0.N = 20 := N_0
  have htN : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hr : t.val * 5000 + p.val < 100000 := by omega
  have he : ((cfg0.win 6).blk t).view.emb (ix2 p q) = ix2 (⟨t.val * 5000 + p.val, hr⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  show k0_pay2 (F := Ideal) (iblk0 V c 0 t) (iblk0 V c 3 t) (iblk0 V c 4 t) (ix2 p q) = layer2 V c (((cfg0.win 6).blk t).view.emb (ix2 p q))
  rw [he]
  refine entry2 (feat V c) (V c main_arg6) (V c main_arg7) (iblk0 V c 0 t) (iblk0 V c 3 t) (iblk0 V c 4 t) ⟨t.val * 5000 + p.val, hr⟩ p q
    (fun k => ?_) (fun k => ?_) ?_
  · show V c main_arg0 (((cfg0.win 0).blk t).view.emb (ix2 p k)) = V c main_arg0 (ix2 (⟨t.val * 5000 + p.val, hr⟩ : Fin 100000) k)
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg6 (((cfg0.win 3).blk t).view.emb (ix2 k q)) = V c main_arg6 (ix2 k q)
    refine congrArg (V c main_arg6) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_arg7 (((cfg0.win 4).blk t).view.emb (ix1 q)) = V c main_arg7 (ix1 q)
    refine congrArg (V c main_arg7) (funext fun a => Fin.ext ?_)
    match a with
    | ⟨0, _⟩ => show win0_4.index t (0 : Fin 1) * 128 + 1 * q.val = q.val; omega

/-! ## The blocks cover the arrays -/

theorem mem_block5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v0_0).slice (win0_5.rect t)).set ↔ _
  rw [View.set_slice_whole, Rect.mem_set_unit]
  exact Iff.rfl

theorem mem_block6 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v0_1).slice (win0_6.rect t)).set ↔ _
  rw [View.set_slice_whole, Rect.mem_set_unit]
  exact Iff.rfl

/-- Row r of the first output is in the block of point r / 5000. -/
theorem covered5 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < grid0.N := by rw [hN]; omega
  refine ⟨⟨(i 0).val / 5000, ht⟩, flush0_5 _, ?_⟩
  rw [mem_block5]
  obtain ⟨-, -, -, -, -, -, -, -, f0, f1, -, -⟩ := block_at ⟨(i 0).val / 5000, ht⟩
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [f0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [f1]; omega

/-- Row r of the second output is in the block of point r / 5000. -/
theorem covered6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  have ht : (i 0).val / 5000 < grid0.N := by rw [hN]; omega
  refine ⟨⟨(i 0).val / 5000, ht⟩, flush0_6 _, ?_⟩
  rw [mem_block6]
  obtain ⟨-, -, -, -, -, -, -, -, -, -, g0, g1⟩ := block_at ⟨(i 0).val / 5000, ht⟩
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [g0]; show (i 0).val / 5000 * 5000 ≤ (i 0).val ∧ (i 0).val < (i 0).val / 5000 * 5000 + 5000; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    rw [g1]; omega

/-! ## The two output arrays after the region -/

theorem final5 (c : Dev nD) : (dat0 V c).arrAt 5 cfg0.N = layer1 V c :=
  (dat0 V c).arrAt_eq_of_cover 5 (layer1 V c) (fun t _ => flushed5_eq V c t) (covered5)

theorem final6 (c : Dev nD) : (dat0 V c).arrAt 6 cfg0.N = layer2 V c :=
  (dat0 V c).arrAt_eq_of_cover 6 (layer2 V c) (fun t _ => flushed6_eq V c t) (covered6)

end Cert.KernelIdeal.Linear

end
-- ==== Proof.Combine.lean ====
/-
  The second region: the sum of three [100000, 128] arrays, 5000 rows at a time.

  At grid point t every window — the three inputs and the output — covers rows 5000·t to 5000·t + 4999, all 128
  columns. The body stores the entrywise sum of its three input blocks, so what point t writes back is block t of
  the entrywise sum of the three whole arrays. The twenty blocks cover all 100000 rows, so the output array ends
  holding that sum.
-/
import proofs.«180217_j65910568124539_1_alg».proof.Proof.Gen.KernelIdeal.Frame
import proofs.«180217_j65910568124539_1_alg».proof.Proof.Payload
import Idealize.ShloMosaic.Lib.Pipeline.Value

set_option maxRecDepth 16384

noncomputable section

namespace Cert.KernelIdeal.Combine

open Cert.KernelIdeal Cert.KernelIdeal.Gen Cert.KernelIdeal.Payload
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The sum of the three arrays the region reads, the first two first. -/
abbrev in0 (c : Dev nD) : S100000x128.Idx → EReal := V c main_v13
abbrev in1 (c : Dev nD) : S100000x128.Idx → EReal := V c main_v0_0
abbrev in2 (c : Dev nD) : S100000x128.Idx → EReal := V c main_v26
abbrev total (c : Dev nD) : S100000x128.Idx → EReal := fun i => (in0 V c i + in1 V c i) + in2 V c i

/-- The block index maps over the grid: at point t every window is at block row t, block column 0. -/
theorem block_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the sum of the three arrays. -/
theorem flushed_eq (c : Dev nD) (t : Fin cfg1.N) :
    (dat1 V c).flushed 3 t = ((cfg1.win 3).blk t).view.read (Elt Ideal) (total V c) := by
  show (cfg1.win 3).cut (grid1.coords t) ((dat1 V c).after 3 t) = _
  rw [after1_3]
  unfold out1_3
  rw [View.canon_unit_zero zero2]
  simp only [View.ld_unit_zero (S := S5000x128) zero2]
  rw [pay_sum]
  obtain ⟨a0, a1, b0, b1, c0, c1, d0, d1⟩ := block_at t
  funext j
  show (in0 V c (((cfg1.win 0).blk t).view.emb j) + in1 V c (((cfg1.win 1).blk t).view.emb j)) + in2 V c (((cfg1.win 2).blk t).view.emb j)
    = (in0 V c (((cfg1.win 3).blk t).view.emb j) + in1 V c (((cfg1.win 3).blk t).view.emb j)) + in2 V c (((cfg1.win 3).blk t).view.emb j)
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 128 + 1 * (j 1).val = win1_3.index t (1 : Fin 2) * 128 + 1 * (j 1).val; omega
  rw [h0, h1, h2]

/-- An index of the output array is in point t's block iff each coordinate is in the block's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27).slice (win1_3.rect t)).set ↔ _
  rw [View.set_slice_whole, Rect.mem_set_unit]
  exact Iff.rfl

/-- Row r of the output array is in the block of point r / 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  have ht : (i 0).val / 5000 < grid1.N := by rw [hN]; omega
  refine ⟨⟨(i 0).val / 5000, ht⟩, flush1_3 _, ?_⟩
  rw [mem_block]
  obtain ⟨-, -, -, -, -, -, d0, d1⟩ := block_at ⟨(i 0).val / 5000, ht⟩
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [d0]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val ∧ (i 1).val < win1_3.index ⟨(i 0).val / 5000, ht⟩ (1 : Fin 2) * 128 + 128
    rw [d1]; omega

/-- The output array after the region: the sum of the three arrays as the region found them. -/
theorem final (c : Dev nD) : (dat1 V c).arrAt 3 cfg1.N = total V c :=
  (dat1 V c).arrAt_eq_of_cover 3 (total V c) (fun t _ => flushed_eq V c t) (covered)

end Cert.KernelIdeal.Combine

end
-- ==== Proof.Sparse.lean ====
/-
  The host operations between the two regions: two sparse products.

  Each product takes a [100000, 128] array h and the edge list (row index, column index, value per edge). A
  negative column index is wrapped by adding 100000; row cols[e] of h is gathered for every edge e, scaled by
  vals[e], and added into row rows[e] of an array of zeros. The program does this once with the first region's
  first output and once with its second, from the same edge list. Nothing here needs to know what gather and
  scatter-add do at an index: both programs apply the same operations, so each product is carried as ONE function
  `spmm` of the array it reads and the edge list.

  The line writes only buffers of its own, so the first region's first output (which the second region also reads)
  and the arguments pass through it untouched.
-/
import proofs.«180217_j65910568124539_1_alg».proof.Proof.Gen.KernelIdeal.Frame
import Idealize.ShloMosaic.Lib.StableHlo.Run

set_option maxRecDepth 16384

noncomputable section

namespace Cert.KernelIdeal.Sparse

open Cert.KernelIdeal Cert.KernelIdeal.Gen
open Idealize.ShloMosaic Idealize.ShloMosaic.TcCoe Idealize.SL.Sem Idealize.ShloMosaic.StableHlo

variable {F : FTy → Type} [FloatOps F]

/-- The sparse product of the edge list with the array `h`: gather the rows of `h` at the (wrapped) column
    indices, scale each by its edge's value, add each into its edge's row of a zero array. -/
def spmm (h : (⟨S100000x128, .f32⟩ : BufTy).Contents (Elt F)) (rows cols : (⟨S1600000, .i32⟩ : BufTy).Contents (Elt F)) (vals : (⟨S1600000, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf
      (Host.gather gather_S100000x128_S1600000x1_S1600000x128_1_0_n_n_0_1_1128 h
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)))
      (broadcastInDim S1600000x128 ![0, 1] bcast_S1600000x1_S1600000x128_0_1
        (broadcastInDim S1600000x1 ![0] bcast_S1600000_S1600000x1_0 vals)))

variable (W : Valuation τ sig (Elt F))

set_option maxHeartbeats 2000000 in
/-- After the line, the first product's buffer holds the product of the first region's first output. -/
theorem first_product :
    after hostOps1 W (Proc.devRef .tc main_v13)
      = spmm (W (Proc.devRef .tc main_v0_0)) (W (Proc.devRef .tc main_arg1)) (W (Proc.devRef .tc main_arg2)) (W (Proc.devRef .tc main_arg3)) := by
  after_results_simp <;> rfl

set_option maxHeartbeats 2000000 in
/-- After the line, the second product's buffer holds the product of the first region's second output. -/
theorem second_product :
    after hostOps1 W (Proc.devRef .tc main_v26)
      = spmm (W (Proc.devRef .tc main_v0_1)) (W (Proc.devRef .tc main_arg1)) (W (Proc.devRef .tc main_arg2)) (W (Proc.devRef .tc main_arg3)) := by
  after_results_simp <;> rfl

set_option maxHeartbeats 2000000 in
/-- The line does not write the first region's first output. -/
theorem kept_first_output : after hostOps1 W (Proc.devRef .tc main_v0_0) = W (Proc.devRef .tc main_v0_0) := by
  after_results_simp <;> rfl

end Cert.KernelIdeal.Sparse

end
-- ==== Proof.Value.lean ====
/-
  The kernel program's result as one function of its eight arguments.

  Reading the three stretches backwards from the result buffer: the second region leaves the entrywise sum of the
  first sparse product, the first layer and the second sparse product (the first two added first); the host line
  makes each sparse product from the corresponding output of the first region and the edge list, and leaves the
  first layer where it was; the first region leaves the two layers of the features, weights and biases; and every
  argument still holds its launch contents when it is read. So the result is

      (spmm (lin x w1 b1) + lin x w1 b1) + spmm (lin (x·x) w2 b2)

  entry by entry, with the same edge list in both sparse products.
-/
import proofs.«180217_j65910568124539_1_alg».proof.Proof.Linear
import proofs.«180217_j65910568124539_1_alg».proof.Proof.Combine
import proofs.«180217_j65910568124539_1_alg».proof.Proof.Sparse

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Cert.Layer Cert.KernelIdeal.Sparse

/-- The result, entry by entry, from the eight arguments: features `x`, edge rows, columns and values, first
    weights and bias, second weights and bias. -/
def out (x : (⟨S100000x128, .f32⟩ : BufTy).Contents (Elt Ideal)) (rows cols : (⟨S1600000, .i32⟩ : BufTy).Contents (Elt Ideal)) (vals : (⟨S1600000, .f32⟩ : BufTy).Contents (Elt Ideal))
    (w1 : (⟨S128x128, .f32⟩ : BufTy).Contents (Elt Ideal)) (b1 : (⟨S128, .f32⟩ : BufTy).Contents (Elt Ideal)) (w2 : (⟨S128x128, .f32⟩ : BufTy).Contents (Elt Ideal)) (b2 : (⟨S128, .f32⟩ : BufTy).Contents (Elt Ideal)) :
    S100000x128.Idx → EReal :=
  fun i => (spmm (F := Ideal) (lin x w1 b1) rows cols vals i + lin x w1 b1 i)
    + spmm (F := Ideal) (lin (fun j => x j * x j) w2 b2) rows cols vals i

variable (m : (ℓ : Loc nD τ sig) → Buf (Elt Ideal) ℓ) (ρ : Dev nD → PrngReg)

/-- The feature array at launch, as a function to the extended reals. -/
abbrev feat0 (c : Dev nD) : S100000x128.Idx → EReal := m ((c : Thread nD τ).loc main_arg0)

/-! ## What the host line and the second region find -/

/-- After the first region its first output holds the first layer of the launch contents. -/
theorem first_output (c : Dev nD) :
    W1 m ρ c (Proc.devRef .tc main_v0_0)
      = lin (m ((c : Thread nD τ).loc main_arg0)) (m ((c : Thread nD τ).loc main_arg4)) (m ((c : Thread nD τ).loc main_arg5)) :=
  (W1_arr m ρ c 5).trans (Linear.final5 (V0 m ρ) c)

/-- After the first region its second output holds the second layer of the launch contents. -/
theorem second_output (c : Dev nD) :
    W1 m ρ c (Proc.devRef .tc main_v0_1)
      = lin (fun j => feat0 m c j * feat0 m c j)
          (m ((c : Thread nD τ).loc main_arg6)) (m ((c : Thread nD τ).loc main_arg7)) :=
  (W1_arr m ρ c 6).trans (Linear.final6 (V0 m ρ) c)

/-- The first region does not touch the edge list. -/
theorem rows_kept (c : Dev nD) : W1 m ρ c (Proc.devRef .tc main_arg1) = m ((c : Thread nD τ).loc main_arg1) :=
  W1_of_ne m ρ c main_arg1 (by decide)
theorem cols_kept (c : Dev nD) : W1 m ρ c (Proc.devRef .tc main_arg2) = m ((c : Thread nD τ).loc main_arg2) :=
  W1_of_ne m ρ c main_arg2 (by decide)
theorem vals_kept (c : Dev nD) : W1 m ρ c (Proc.devRef .tc main_arg3) = m ((c : Thread nD τ).loc main_arg3) :=
  W1_of_ne m ρ c main_arg3 (by decide)

/-! ## The result buffer -/

/-- The result buffer after the last stretch is `out` of the launch contents of the arguments. -/
theorem result_eq (c : Dev nD) :
    W3 m ρ c (Proc.devRef .tc main_v27)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W3_arr m ρ c 3).trans ((Combine.final (V2 m ρ) c).trans ?_)
  have e0 : Combine.in0 (V2 m ρ) c = spmm (F := Ideal)
      (lin (m ((c : Thread nD τ).loc main_arg0)) (m ((c : Thread nD τ).loc main_arg4)) (m ((c : Thread nD τ).loc main_arg5)))
      (m ((c : Thread nD τ).loc main_arg1)) (m ((c : Thread nD τ).loc main_arg2)) (m ((c : Thread nD τ).loc main_arg3)) := by
    show after hostOps1 (W1 m ρ c) (Proc.devRef .tc main_v13) = _
    rw [first_product, first_output, rows_kept, cols_kept, vals_kept]
  have e1 : Combine.in1 (V2 m ρ) c
      = lin (m ((c : Thread nD τ).loc main_arg0)) (m ((c : Thread nD τ).loc main_arg4)) (m ((c : Thread nD τ).loc main_arg5)) := by
    show after hostOps1 (W1 m ρ c) (Proc.devRef .tc main_v0_0) = _
    rw [kept_first_output, first_output]
  have e2 : Combine.in2 (V2 m ρ) c = spmm (F := Ideal)
      (lin (fun j => feat0 m c j * feat0 m c j)
        (m ((c : Thread nD τ).loc main_arg6)) (m ((c : Thread nD τ).loc main_arg7)))
      (m ((c : Thread nD τ).loc main_arg1)) (m ((c : Thread nD τ).loc main_arg2)) (m ((c : Thread nD τ).loc main_arg3)) := by
    show after hostOps1 (W1 m ρ c) (Proc.devRef .tc main_v26) = _
    rw [second_product, second_output, rows_kept, cols_kept, vals_kept]
  show (fun i => (Combine.in0 (V2 m ρ) c i + Combine.in1 (V2 m ρ) c i) + Combine.in2 (V2 m ρ) c i) = _
  rw [e0, e1, e2]
  rfl

end Cert.KernelIdeal.Result

end
-- ==== Proof.RefLayer.lean ====
/-
  The reference's two linear stages are the layer `lin`.

  The reference forms  x @ w + b  with one dot product over the whole [100000, 128] array (its entry at (r, c)
  is the sum over k of x[r, k] * w[k, c]) and adds the bias broadcast first to one row and then over all rows
  (its entry at (r, c) is b[c]). Entry by entry that is `lin x w b`. The second stage is the same with the
  squared features in place of the features.
-/
import proofs.«180217_j65910568124539_1_alg».proof.Proof.Gen.ReferenceIdeal.Read
import proofs.«180217_j65910568124539_1_alg».proof.Proof.Spec

noncomputable section

namespace Cert.ReferenceIdeal.Layer

open Cert.ReferenceIdeal Cert.ReferenceIdeal.Gen Cert.ReferenceIdeal.Read
open Idealize.ShloMosaic Idealize.ShloMosaic.ValueIdx Cert.LibDense Cert.Layer

/-- The first stage: the features against the first weights, plus the first bias. -/
theorem stage1_eq (x0 : (⟨S100000x128, .f32⟩ : BufTy).Contents (Elt Ideal)) (x4 : (⟨S128x128, .f32⟩ : BufTy).Contents (Elt Ideal))
    (x5 : (⟨S128, .f32⟩ : BufTy).Contents (Elt Ideal)) :
    val_main_v3 (F := Ideal) x0 x4 x5 = lin x0 x4 x5 := by
  funext i
  obtain ⟨r, c, rfl⟩ : ∃ (r : Fin 100000) (c : Fin 128), i = ix2 r c := ⟨i 0, i 1, eq_ix2 i⟩
  rw [val_main_v3_apply, val_main_v0_apply, val_main_v2_apply, val_main_v1_apply, lin_apply]
  refine congrArg₂ (fun a b : EReal => a + b) ?_ ?_
  · unfold dense
    refine Finset.sum_congr rfl fun k _ => ?_
    have el : lidx_main_v0 (ix2 r c) k = ix2 r k := funext fun a => by match a with | ⟨0, _⟩ => rfl | ⟨1, _⟩ => rfl
    have er : ridx_main_v0 (ix2 r c) k = ix2 k c := funext fun a => by match a with | ⟨0, _⟩ => rfl | ⟨1, _⟩ => rfl
    rw [el, er]
  · exact congrArg x5 (funext fun a => by match a with | ⟨0, _⟩ => rfl)

/-- The second stage: the squared features against the second weights, plus the second bias. -/
theorem stage2_eq (x0 : (⟨S100000x128, .f32⟩ : BufTy).Contents (Elt Ideal)) (x6 : (⟨S128x128, .f32⟩ : BufTy).Contents (Elt Ideal))
    (x7 : (⟨S128, .f32⟩ : BufTy).Contents (Elt Ideal)) :
    val_main_v22 (F := Ideal) x0 x6 x7 = lin (fun i => x0 i * x0 i) x6 x7 := by
  funext i
  obtain ⟨r, c, rfl⟩ : ∃ (r : Fin 100000) (c : Fin 128), i = ix2 r c := ⟨i 0, i 1, eq_ix2 i⟩
  rw [val_main_v22_apply, val_main_v19_apply, val_main_v21_apply, val_main_v20_apply, lin_apply]
  refine congrArg₂ (fun a b : EReal => a + b) ?_ ?_
  · unfold dense
    refine Finset.sum_congr rfl fun k _ => ?_
    have el : lidx_main_v19 (ix2 r c) k = ix2 r k := funext fun a => by match a with | ⟨0, _⟩ => rfl | ⟨1, _⟩ => rfl
    have er : ridx_main_v19 (ix2 r c) k = ix2 k c := funext fun a => by match a with | ⟨0, _⟩ => rfl | ⟨1, _⟩ => rfl
    rw [el, er]
    rfl
  · exact congrArg x7 (funext fun a => by match a with | ⟨0, _⟩ => rfl)

end Cert.ReferenceIdeal.Layer

end
-- ==== Proof.Bridge.lean ====
/-
  The reference computes the same function.

  The reference makes the first layer with one whole-array dot product and bias, forms its sparse product with the
  edge list, and adds the layer back; then the same sparse product of the second layer; then adds the two. Its two
  layers are `lin` (entry by entry: a row against a column, plus the bias), and its sparse products are the same
  gather, scale and scatter-add the kernel program's host line applies — the same operations with the same
  dimension numbers, so they are carried as the one function `spmm` and never opened. Hence the reference's result is
  `out` of the arguments, the function the kernel program's result was shown to be.
-/
import proofs.«180217_j65910568124539_1_alg».proof.Proof.RefLayer
import proofs.«180217_j65910568124539_1_alg».proof.Proof.Value

noncomputable section

namespace Cert.ReferenceIdeal.Bridge

open Cert.ReferenceIdeal Cert.ReferenceIdeal.Gen Cert.ReferenceIdeal.Read
open Idealize.ShloMosaic Idealize.ShloMosaic.ValueIdx
open Cert.Layer Cert.KernelIdeal.Sparse Cert.KernelIdeal.Result

variable (x0 : (⟨S100000x128, .f32⟩ : BufTy).Contents (Elt Ideal)) (x1 x2 : (⟨S1600000, .i32⟩ : BufTy).Contents (Elt Ideal)) (x3 : (⟨S1600000, .f32⟩ : BufTy).Contents (Elt Ideal))
  (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))

/-- The reference's first sparse product is `spmm` of its first layer. -/
theorem product1 : val_main_v16 (F := Ideal) x0 x1 x2 x3 x4 x5 = spmm (F := Ideal) (val_main_v3 (F := Ideal) x0 x4 x5) x1 x2 x3 := rfl

/-- The reference's second sparse product is `spmm` of its second layer. -/
theorem product2 : val_main_v35 (F := Ideal) x0 x1 x2 x3 x6 x7 = spmm (F := Ideal) (val_main_v22 (F := Ideal) x0 x6 x7) x1 x2 x3 := rfl

/-- The reference's result is `out` of the arguments. -/
theorem result_eq : val_main_v36 (F := Ideal) x0 x1 x2 x3 x4 x5 x6 x7 = out x0 x1 x2 x3 x4 x5 x6 x7 := by
  funext i
  rw [val_main_v36_apply, val_main_v17_apply, product1, product2, Cert.ReferenceIdeal.Layer.stage1_eq, Cert.ReferenceIdeal.Layer.stage2_eq]
  rfl

end Cert.ReferenceIdeal.Bridge

end
-- ==== Proof.lean ====
/-
  A sparse graph layer: two linear layers of the node features, the graph's sparse matrix applied to each, and the
  first layer added back.

  Arguments: features x [100000, 128], an edge list (rows, cols, vals; 1600000 edges), weights and biases
  (w1, b1), (w2, b2). With  lin x w b  the linear layer (entry (r, c): row r of x against column c of w, plus
  b[c]) and  spmm h  the sparse product (gather the rows of h at the column indices, scale by the edge values,
  add into the edges' rows), both programs compute

      (spmm (lin x w1 b1) + lin x w1 b1) + spmm (lin (x·x) w2 b2).

  The kernel program computes the two layers in a first region, 5000 rows at a time on the matrix unit (operands
  narrowed to a shorter float format first, which is the identity at the exact instance), the two sparse products
  with host operations, and the final sum in a second region, 5000 rows at a time. The reference computes each
  layer with one whole-array dot product and applies the same host operations. At the exact instance a product
  into a zero accumulator and a dot product are the same sum over the 128 contracted positions, tiling by rows
  does not change any entry, and the three-term sum is grouped the same way on both sides: no law of the
  extended reals beyond that is used, so the inputs' finiteness is never needed.

  The three frames: the two kernel programs' are their generated frame certificates; the reference's is its run
  with the result dropped. The idealization rewrote no operation, so there is nothing to preserve.
-/
import proofs.«180217_j65910568124539_1_alg».proof.Defs
import proofs.«180217_j65910568124539_1_alg».proof.Proof.Gen.Kernel
import proofs.«180217_j65910568124539_1_alg».proof.Proof.Gen.Kernel.Frame
import proofs.«180217_j65910568124539_1_alg».proof.Proof.Gen.KernelIdeal
import proofs.«180217_j65910568124539_1_alg».proof.Proof.Gen.KernelIdeal.Frame
import proofs.«180217_j65910568124539_1_alg».proof.Proof.Gen.ReferenceIdeal
import proofs.«180217_j65910568124539_1_alg».proof.Proof.Gen.Pre_finite_inputs
import proofs.«180217_j65910568124539_1_alg».proof.Proof.Gen.ReferenceIdeal.Run
import proofs.«180217_j65910568124539_1_alg».proof.Proof.Gen.ReferenceIdeal.Read
import proofs.«180217_j65910568124539_1_alg».proof.Proof.Whole
import proofs.«180217_j65910568124539_1_alg».proof.Proof.Value
import proofs.«180217_j65910568124539_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the result buffer at `out` of the arguments. -/
theorem algebraic : Cert.algebraic_KernelIdeal_ReferenceIdeal := by
  intro m ρ m' ρ' _ hagree
  refine ⟨fun c => Cert.KernelIdeal.Result.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v36_eq, Cert.ReferenceIdeal.Bridge.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
